-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096x12 : Shape := ⟨2, ![4096, 12]⟩
abbrev S12 : Shape := ⟨1, ![12]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x12 : S_.BroadcastsInDim S4096x12 (![] : Fin 0 → Fin S4096x12.rank)
  reducesTo_S4096x12_S_d0_1 : S4096x12.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg4 : FVec F S4096x12 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S4096x12 .f32 := Host.absf main_arg4
  let main_cst_6 : FVec F S_ .f32 := constant S_ .f32 0x7F800000#32
  let main_v20 : FVec F S4096x12 .f32 := broadcastInDim S4096x12 ![] bcast_S_S4096x12 main_cst_6
  let main_v21 : IVec S4096x12 1 := cmpf .olt main_v19 main_v20
  let main_c_7 : IVec S_ 1 := constantI S_ 1 1#1
  let main_v22 : IVec S_ 1 := (fun x v => Host.reduce IntOp.andi x v reducesTo_S4096x12_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096x12 .f32) (main_arg3 : FVec F S12 .f32) (main_arg4 : FVec F S4096x12 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x12 .f32 := Host.absf main_arg2
  let main_cst_2 : FVec F S_ .f32 := constant S_ .f32 0x7F800000#32
  let main_v10 : FVec F S4096x12 .f32 := broadcastInDim S4096x12 ![] bcast_S_S4096x12 main_cst_2
  let main_v11 : IVec S4096x12 1 := cmpf .olt main_v9 main_v10
  let main_c_3 : IVec S_ 1 := constantI S_ 1 1#1
  let main_v12 : IVec S_ 1 := (fun x v => Host.reduce IntOp.andi x v reducesTo_S4096x12_S_d0_1 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096x12 : Shape := ⟨2, ![4096, 12]⟩
abbrev S12 : Shape := ⟨1, ![12]⟩
abbrev S1x12 : Shape := ⟨2, ![1, 12]⟩
abbrev S12x4096 : Shape := ⟨2, ![12, 4096]⟩
abbrev S_ : Shape := ⟨0, ![]⟩
abbrev S16384x4096 : Shape := ⟨2, ![16384, 4096]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 18
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096x12, .f32⟩
  | .hbm, ⟨3, _⟩ => ⟨S12, .f32⟩
  | .hbm, ⟨4, _⟩ => ⟨S4096x12, .f32⟩
  | .hbm, ⟨5, _⟩ => ⟨S1x12, .f32⟩
  | .hbm, ⟨6, _⟩ => ⟨S4096x12, .f32⟩
  | .hbm, ⟨7, _⟩ => ⟨S4096x12, .f32⟩
  | .hbm, ⟨8, _⟩ => ⟨S12x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S16384x4096, .f32⟩
  | .hbm, ⟨15, _⟩ => ⟨S4096x4096, .bf16⟩
  | .hbm, ⟨16, _⟩ => ⟨S16384x4096, .f32⟩
  | .hbm, ⟨17, _⟩ => ⟨S4x4096x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S12_S1x12_1 : S12.BroadcastsInDim S1x12 (![1] : Fin 1 → Fin S1x12.rank)
  bcast_S1x12_S4096x12_0_1 : S1x12.BroadcastsInDim S4096x12 (![0, 1] : Fin 2 → Fin S4096x12.rank)
  transposes_S4096x12_S12x4096_1_0 : S4096x12.Transposes [1, 0] S12x4096
  bcast_S_S4096x4096 : S_.BroadcastsInDim S4096x4096 (![] : Fin 0 → Fin S4096x4096.rank)
  shapeCasts_S4x4096x4096_S16384x4096 : S4x4096x4096.ShapeCasts S16384x4096
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S16384x4096_S4x4096x4096 : S16384x4096.ShapeCasts S4x4096x4096
  dot_S4096x12_S12x4096_S4096x4096_1_0_0_1_n_n_wf : DotDims.WF S4096x12 S12x4096 S4096x4096 [1] [0] [0] [1] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .f32 = 32 ∨ (Rect.block (s := S16384x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x4096.size a
  hwx0_2 : ∀ i : grid0.Coords, EltTy.bits .f32 = 32 ∨ (Rect.block (s := S16384x4096) S2048x1024.size (cc0_transform_2 i) (hinb0_2 i)).WholeWords (EltTy.packing .f32)

variable [Facts₀]

def dot_S4096x12_S12x4096_S4096x4096_1_0_0_1_n_n : DotDims S4096x12 S12x4096 S4096x4096 where
  lhsContracting := [1]
  rhsContracting := [0]
  lhsNonContracting := [0]
  rhsNonContracting := [1]
  lhsBatch := []
  rhsBatch := []
  wf := dot_S4096x12_S12x4096_S4096x4096_1_0_0_1_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v8) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096x12 : Shape := ⟨2, ![4096, 12]⟩
abbrev S12 : Shape := ⟨1, ![12]⟩
abbrev S1x12 : Shape := ⟨2, ![1, 12]⟩
abbrev S12x4096 : Shape := ⟨2, ![12, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096x12, .f32⟩
  | .hbm, ⟨3, _⟩ => ⟨S12, .f32⟩
  | .hbm, ⟨4, _⟩ => ⟨S4096x12, .f32⟩
  | .hbm, ⟨5, _⟩ => ⟨S4x4096x4096, .f32⟩
  | .hbm, ⟨6, _⟩ => ⟨S1x12, .f32⟩
  | .hbm, ⟨7, _⟩ => ⟨S4096x12, .f32⟩
  | .hbm, ⟨8, _⟩ => ⟨S4096x12, .f32⟩
  | .hbm, ⟨9, _⟩ => ⟨S12x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4x4096x4096, .f32⟩
  | .hbm, ⟨15, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S12_S1x12_1 : S12.BroadcastsInDim S1x12 (![1] : Fin 1 → Fin S1x12.rank)
  bcast_S1x12_S4096x12_0_1 : S1x12.BroadcastsInDim S4096x12 (![0, 1] : Fin 2 → Fin S4096x12.rank)
  transposes_S4096x12_S12x4096_1_0 : S4096x12.Transposes [1, 0] S12x4096
  bcast_S_S4096x4096 : S_.BroadcastsInDim S4096x4096 (![] : Fin 0 → Fin S4096x4096.rank)
  dot_S4x4096x4096_S4096x4096_S4x4096x4096_2_1_01_0_n_n_wf : DotDims.WF S4x4096x4096 S4096x4096 S4x4096x4096 [2] [1] [0, 1] [0] [] []
  dot_S4096x12_S12x4096_S4096x4096_1_0_0_1_n_n_wf : DotDims.WF S4096x12 S12x4096 S4096x4096 [1] [0] [0] [1] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4096x12_S12x4096_S4096x4096_1_0_0_1_n_n : DotDims S4096x12 S12x4096 S4096x4096 where
  lhsContracting := [1]
  rhsContracting := [0]
  lhsNonContracting := [0]
  rhsNonContracting := [1]
  lhsBatch := []
  rhsBatch := []
  wf := dot_S4096x12_S12x4096_S4096x4096_1_0_0_1_n_n_wf

class Facts : Prop extends Facts₀ where

variable [Facts]
-- ==== Proof.Pieces.lean ====
/-
  What one grid point leaves behind, as a value.

  The body keeps a running block of partial products in a scratch buffer.  At a point whose reduction coordinate is
  zero it first stores a zero block there; at every point it adds to the scratch the product of the point's block of
  the left matrix with the transposed block of the right matrix; at a point whose reduction coordinate is the last
  one it copies the scratch into the output block.  Each of the three kinds of point therefore leaves, in the scratch,
  "the block found there, plus this point's product" (with the zero block in place of the block found, at a first
  point), and a last point leaves the same block in the output.  Here these four facts are read off the stores the
  run of the body found, for any float instance.
-/
import proofs.«138043_j48576080118359_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]

/-- The offset of a store that begins at the corner of its buffer. -/
theorem corner : (![0, 0] : Fin 2 → Nat) = fun _ => 0 := funext fun a => by fin_cases a <;> rfl

/-- A point in the middle of a reduction: the scratch ends at the block it held plus the point's product. -/
theorem scratch_mid (c : Dev nD) (i : grid0.Coords) (a3 : Memref sig .tc .vmem S2048x512 .f32) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : ¬cond0_1 i)
    (x0 : Vec F S2048x512 .f32) (x1 : Vec F S1024x512 .bf16) (xs0 : Vec F S2048x1024 .f32) :
    sout0_B_0 c i a3 h3 a4 h4 a5 h5 a6 h6 hc0 hc1 x0 x1 xs0 = k0_pay2 x0 xs0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero corner]
  simp only [View.readAt_eq_ld, h3.read_unread, h4.read_unread, h6.read_unread, View.ld_unit_zero (S := S2048x512) corner,
    View.ld_unit_zero (S := S1024x512) corner, View.ld_unit_zero (S := S2048x1024) corner]

/-- The first point of a reduction: the scratch ends at the zero block plus the point's product (the zero block
    is stored first and read back). -/
theorem scratch_first (c : Dev nD) (i : grid0.Coords) (a3 : Memref sig .tc .vmem S2048x512 .f32) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : cond0_0 i) (hc1 : ¬cond0_1 i)
    (x0 : Vec F S2048x512 .f32) (x1 : Vec F S1024x512 .bf16) :
    sout0_A_0 c i a3 h3 a4 h4 a5 h5 a6 h6 hc0 hc1 x0 x1 = k0_pay2 x0 (k0_pay1 (F := F)) x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S2048x1024) corner, View.readCov_unit_zero (S := S2048x1024) _ corner]
  simp only [View.readAt_eq_ld, h3.read_unread, h4.read_unread, View.ld_unit_zero (S := S2048x512) corner,
    View.ld_unit_zero (S := S1024x512) corner]

/-- The last point of a reduction: the scratch ends at the block it held plus the point's product, -/
theorem scratch_last (c : Dev nD) (i : grid0.Coords) (a3 : Memref sig .tc .vmem S2048x512 .f32) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x0 : Vec F S2048x512 .f32) (x1 : Vec F S1024x512 .bf16) (xs0 : Vec F S2048x1024 .f32) :
    sout0_C_0 c i a3 h3 a4 h4 a5 h5 a6 h6 hc0 hc1 x0 x1 xs0 = k0_pay2 x0 xs0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero corner]
  simp only [View.readAt_eq_ld, h3.read_unread, h4.read_unread, h6.read_unread, View.ld_unit_zero (S := S2048x512) corner,
    View.ld_unit_zero (S := S1024x512) corner, View.ld_unit_zero (S := S2048x1024) corner]

/-- and the output block is that same block, copied from the scratch. -/
theorem out_last (c : Dev nD) (i : grid0.Coords) (a3 : Memref sig .tc .vmem S2048x512 .f32) (h3 : a3.IsWhole)
    (a4 : Memref sig .tc .vmem S1024x512 .bf16) (h4 : a4.IsWhole) (a5 : Memref sig .tc .vmem S2048x1024 .f32) (h5 : a5.IsWhole)
    (a6 : Memref sig .tc .vmem S2048x1024 .f32) (h6 : a6.IsWhole) (hc0 : ¬cond0_0 i) (hc1 : cond0_1 i)
    (x0 : Vec F S2048x512 .f32) (x1 : Vec F S1024x512 .bf16) (xs0 : Vec F S2048x1024 .f32) :
    out0_C_2 c i a3 h3 a4 h4 a5 h5 a6 h6 hc0 hc1 x0 x1 xs0 = k0_pay2 x0 xs0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero corner, View.readCov_unit_zero (S := S2048x1024) _ corner]
  simp only [View.readAt_eq_ld, h3.read_unread, h4.read_unread, h6.read_unread, View.ld_unit_zero (S := S2048x512) corner,
    View.ld_unit_zero (S := S1024x512) corner, View.ld_unit_zero (S := S2048x1024) corner]

end Cert.KernelIdeal.Acc

end
-- ==== Proof.LibDenseRows.lean ====
import Idealize.ShloMosaic.PureOps.Ideal
import Idealize.ShloMosaic.PureOps.Ideal.Laws
import Idealize.ShloMosaic.Lib.ValueIdx

/-!
# A matrix times a transposed matrix, row by row, over the extended reals

`dense X W` is the product `X · Wᵀ` of an `M × K` array with an `N × K` array: entry `(a, n)` is
`∑ k, X (a, k) * W (n, k)`. `relu` is the entrywise maximum with zero. Both act on each row of `X`
by itself: two arrays (of any numbers of rows) that agree on one row of each give results that
agree on that row (`dense_row`, `relu_row`). No law of the extended reals beyond reading a sum term
by term is used, so nothing here asks the entries to be finite.

The matrix unit's product into a zero accumulator and the host's `dot_general`, both contracting the
last axis of each operand (the dimension numbers `DotDims.transposedRhs`), are `dense` of their
operands at the ideal values (`matmul_zero_eq_dense`, `dotGeneral_eq_dense`); the entrywise maximum
with a splat of a zero pattern is `relu` (`maximumf_zero_eq_relu`).
-/

noncomputable section

namespace Cert.DenseRows

open Idealize.ShloMosaic Idealize.ShloMosaic.ValueIdx

/-- `X · Wᵀ`: entry `(a, n)` is the sum over `k` of `X (a, k) * W (n, k)`. -/
def dense {M K N : ℕ} (X : (⟨2, ![M, K]⟩ : Shape).Idx → EReal) (W : (⟨2, ![N, K]⟩ : Shape).Idx → EReal) :
    (⟨2, ![M, N]⟩ : Shape).Idx → EReal :=
  fun j => ∑ k : Fin K, X (ix2 (j 0) k) * W (ix2 (j 1) k)

/-- The entrywise maximum with zero. -/
def relu {s : Shape} (X : s.Idx → EReal) : s.Idx → EReal := fun j => max (X j) 0

theorem dense_apply {M K N : ℕ} (X : (⟨2, ![M, K]⟩ : Shape).Idx → EReal) (W : (⟨2, ![N, K]⟩ : Shape).Idx → EReal)
    (a : Fin M) (n : Fin N) : dense X W (ix2 a n) = ∑ k : Fin K, X (ix2 a k) * W (ix2 n k) := rfl

theorem relu_apply {s : Shape} (X : s.Idx → EReal) (j : s.Idx) : relu X j = max (X j) 0 := rfl

/-- Row `a` of `X · Wᵀ` is a function of row `a` of `X` alone. -/
theorem dense_row {M M' K N : ℕ} (X : (⟨2, ![M, K]⟩ : Shape).Idx → EReal) (X' : (⟨2, ![M', K]⟩ : Shape).Idx → EReal)
    (W : (⟨2, ![N, K]⟩ : Shape).Idx → EReal) (a : Fin M) (a' : Fin M')
    (h : ∀ k : Fin K, X (ix2 a k) = X' (ix2 a' k)) (n : Fin N) :
    dense X W (ix2 a n) = dense X' W (ix2 a' n) := by
  rw [dense_apply, dense_apply]
  exact Finset.sum_congr rfl fun k _ => by rw [h k]

/-- So is row `a` of the entrywise maximum with zero. -/
theorem relu_row {M M' K : ℕ} (X : (⟨2, ![M, K]⟩ : Shape).Idx → EReal) (X' : (⟨2, ![M', K]⟩ : Shape).Idx → EReal)
    (a : Fin M) (a' : Fin M') (h : ∀ k : Fin K, X (ix2 a k) = X' (ix2 a' k)) (k : Fin K) :
    relu X (ix2 a k) = relu X' (ix2 a' k) := by
  rw [relu_apply, relu_apply, h k]

/-! ## The contraction of the last axis of both operands, as a sum over that axis's coordinate -/

/-- With the dimension numbers `transposedRhs` the left operand's row is the result's row … -/
theorem lhsIdx_transposedRhs_0 {M K N : ℕ} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- … the right operand's row is the result's column … -/
theorem rhsIdx_transposedRhs_0 {M K N : ℕ} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- … and both operands' columns are the contraction coordinate: the left operand is read at (row, `k`) … -/
theorem lhsIdx_transposedRhs {M K N : ℕ} (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  refine Fin.ext ?_
  match a with
  | ⟨0, _⟩ => exact lhsIdx_transposedRhs_0 j _
  | ⟨1, _⟩ => exact ((DotDims.transposedRhs M K N).lhsIdx_val_of_single rfl j _).trans hk

/-- … and the right operand at (column, `k`). -/
theorem rhsIdx_transposedRhs {M K N : ℕ} (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  refine Fin.ext ?_
  match a with
  | ⟨0, _⟩ => exact rhsIdx_transposedRhs_0 j _
  | ⟨1, _⟩ => exact ((DotDims.transposedRhs M K N).rhsIdx_val_of_single rfl j _).trans hk

/-- The textbook contraction with those dimension numbers is `dense`. -/
theorem contraction_transposedRhs {M K N : ℕ} (l : (⟨2, ![M, K]⟩ : Shape).Idx → EReal) (r : (⟨2, ![N, K]⟩ : Shape).Idx → EReal)
    (j : (⟨2, ![M, N]⟩ : Shape).Idx) :
    ∑ q : (DotDims.transposedRhs M K N).contr.Idx,
        l ((DotDims.transposedRhs M K N).lhsIdx j q) * r ((DotDims.transposedRhs M K N).rhsIdx j q) = dense l r j := by
  rw [← Equiv.sum_comp (contrEquiv1 (DotDims.transposedRhs M K N) K rfl rfl).symm]
  exact Finset.sum_congr rfl fun k _ => by rw [lhsIdx_transposedRhs, rhsIdx_transposedRhs]; rfl

/-- The matrix unit's product into the zero splat, contracting the last axis of both operands, is `dense`
    at the ideal values (whatever the operands' formats). `hd` is `rfl` for a printed record with those lists. -/
theorem matmul_zero_eq_dense {M K N : ℕ} {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) :
    matmul d prec l r (constant (F := Ideal) ⟨2, ![M, N]⟩ .f32 0x00000000#32) = dense l r := by
  subst hd
  funext j
  exact (Ideal.matmul_constant_zero_apply _ prec l r j).trans (contraction_transposedRhs l r j)

/-- The host's `dot_general` with the same dimension numbers likewise. -/
theorem dotGeneral_eq_dense {M K N : ℕ} {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) :
    Host.dotGeneral d prec l r = dense l r := by
  subst hd
  funext j
  exact (Ideal.dotGeneral_apply _ prec .single l r j).trans (contraction_transposedRhs l r j)

/-- The entrywise maximum with an array that is zero everywhere is `relu`. -/
theorem maximumf_zero_eq_relu {s : Shape} {φ : FTy} (x z : FVec Ideal s φ) (hz : ∀ j, z j = 0) :
    maximumf x z = relu x := by
  funext j
  show max (x j) (z j) = max (x j) 0
  rw [hz j]

end Cert.DenseRows

end
-- ==== Proof.Payload.lean ====
/-
  One point's arithmetic over the extended reals.

  The block a point stores into the scratch is "the block read from the scratch, plus the product of the point's
  left block with its transposed right block".  Changes of float format are the identity over the extended reals and
  the product starts from a zero block, so entry (r, q) of the stored block is the entry found there plus the sum
  over l of x (r, l) * w (q, l).  The zero block stored at a first point is zero at every entry.
-/
import proofs.«138043_j48576080118359_2_alg».proof.Proof.Gen.KernelIdeal.Skeleton
import proofs.«138043_j48576080118359_2_alg».proof.Proof.LibDenseRows
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Acc

open Cert.KernelIdeal Cert.KernelIdeal.Gen

/-- The zero block is zero at every entry. -/
theorem zero_block_apply (j : S2048x1024.Idx) : k0_pay1 (F := Ideal) j = 0 := by
  unfold k0_pay1
  simp only [shapeCast_self]
  show Ideal.ofBits .f32 0x00000000#32 = 0
  exact Ideal.ofBits_zero_f32

/-- Entry (r, q) of the block a point stores: the entry found, plus the inner product of row r of the left block
    with row q of the right block. -/
theorem step_apply (x : Vec Ideal S2048x512 .f32) (acc : Vec Ideal S2048x1024 .f32) (w : Vec Ideal S1024x512 .bf16)
    (r : Fin 2048) (q : Fin 1024) :
    k0_pay2 (F := Ideal) x acc w (ix2 r q) = acc (ix2 r q) + ∑ l : Fin 512, x (ix2 r l) * w (ix2 q l) := by
  unfold k0_pay2
  simp only [shapeCast_self]
  refine (congrArg (fun z => acc (ix2 r q) + z) (congrFun (Cert.DenseRows.matmul_zero_eq_dense (M := 2048) (K := 512) (N := 1024)
    dot_S2048x512_S1024x512_S2048x1024_1_1_0_0_n_n rfl none (truncf .bf16 x bitsLt_bf16_f32) w) (ix2 r q))).trans ?_
  rfl

end Cert.KernelIdeal.Acc

end
-- ==== Proof.LibRowDot.lean ====
/-
  Row products of two matrices, read by natural-number coordinates.

  An entry of a matrix is read at a pair of natural numbers, and is zero outside the matrix; the first `n`
  products of row `r` of `A` with row `s` of `B` are summed over `Finset.range n`.  Read this way a partial
  inner product grows one block of `L` products at a time (`rowDot_block`), starts at zero, and at the full
  width is the inner product of the two rows over `Fin K` (`rowDot_full`).  Addition of extended reals is
  commutative and associative, so no finiteness is needed anywhere here.
-/
import Idealize.ShloMosaic.PureOps.Ideal
import Idealize.ShloMosaic.Lib.ValueIdx

noncomputable section

open Idealize.ShloMosaic Idealize.ShloMosaic.ValueIdx
open scoped BigOperators

namespace Cert.MatSpec

/-- Entry `(r, l)` of an `R × K` matrix, read at natural numbers: zero outside the matrix. -/
def at2 {R K : Nat} (A : (⟨2, ![R, K]⟩ : Shape).Idx → EReal) (r l : Nat) : EReal :=
  if h : r < R ∧ l < K then A (ix2 ⟨r, h.1⟩ ⟨l, h.2⟩) else 0

/-- Inside the matrix the reading is the entry. -/
theorem at2_of_lt {R K : Nat} (A : (⟨2, ![R, K]⟩ : Shape).Idx → EReal) (r l : Nat) (hr : r < R) (hl : l < K) :
    at2 A r l = A (ix2 ⟨r, hr⟩ ⟨l, hl⟩) := by
  unfold at2
  rw [dif_pos ⟨hr, hl⟩]

/-- The sum of the first `n` products of row `r` of `A` with row `s` of `B`. -/
def rowDot {R S K : Nat} (A : (⟨2, ![R, K]⟩ : Shape).Idx → EReal) (B : (⟨2, ![S, K]⟩ : Shape).Idx → EReal)
    (r s n : Nat) : EReal :=
  ∑ l ∈ Finset.range n, at2 A r l * at2 B s l

/-- No product yet: zero. -/
theorem rowDot_zero {R S K : Nat} (A : (⟨2, ![R, K]⟩ : Shape).Idx → EReal) (B : (⟨2, ![S, K]⟩ : Shape).Idx → EReal)
    (r s : Nat) : rowDot A B r s 0 = 0 :=
  Finset.sum_range_zero _

/-- One more block of `L` products: the sum over `b + 1` blocks is the sum over `b` blocks plus the products
    at positions `L * b + kk`, `kk < L`. -/
theorem rowDot_block {R S K : Nat} (A : (⟨2, ![R, K]⟩ : Shape).Idx → EReal) (B : (⟨2, ![S, K]⟩ : Shape).Idx → EReal)
    (r s L b : Nat) :
    rowDot A B r s (L * (b + 1))
      = rowDot A B r s (L * b) + ∑ kk : Fin L, at2 A r (L * b + kk.val) * at2 B s (L * b + kk.val) := by
  unfold rowDot
  rw [show L * (b + 1) = L * b + L from by ring, Finset.sum_range_add,
    Finset.sum_range (fun x => at2 A r (L * b + x) * at2 B s (L * b + x))]

/-- All `K` products of two rows inside the matrices: the inner product of the rows. -/
theorem rowDot_full {R S K : Nat} (A : (⟨2, ![R, K]⟩ : Shape).Idx → EReal) (B : (⟨2, ![S, K]⟩ : Shape).Idx → EReal)
    (r : Fin R) (s : Fin S) :
    rowDot A B r.val s.val K = ∑ k : Fin K, A (ix2 r k) * B (ix2 s k) := by
  unfold rowDot
  rw [Finset.sum_range (fun l => at2 A r.val l * at2 B s.val l)]
  refine Finset.sum_congr rfl fun k _ => ?_
  rw [at2_of_lt A r.val k.val r.isLt k.isLt, at2_of_lt B s.val k.val s.isLt k.isLt]

/-- The partial sums only depend on the entries read: two pairs of matrices, of any sizes, whose readings agree
    along rows `r` and `s` have the same partial sums. -/
theorem rowDot_congr {R S K R' S' K' : Nat} (A : (⟨2, ![R, K]⟩ : Shape).Idx → EReal) (A' : (⟨2, ![R', K']⟩ : Shape).Idx → EReal)
    (B : (⟨2, ![S, K]⟩ : Shape).Idx → EReal) (B' : (⟨2, ![S', K']⟩ : Shape).Idx → EReal)
    (r s n : Nat) (hA : ∀ l, at2 A r l = at2 A' r l) (hB : ∀ l, at2 B s l = at2 B' s l) :
    rowDot A B r s n = rowDot A' B' r s n := by
  unfold rowDot
  exact Finset.sum_congr rfl fun l _ => by rw [hA l, hB l]

end Cert.MatSpec

end
-- ==== Proof.Blocks.lean ====
/-
  Where a grid point's blocks sit in the two matrices.

  The grid has 8 × 4 × 8 points, numbered row-major: point t has row-block t / 32, column-block (t / 8) % 4 and
  reduction step t % 8.  At point t the left matrix (16384 × 4096) is read through its 2048 × 512 block at
  (t / 32, t % 8), the right matrix (4096 × 4096, one row per output column) through its 1024 × 512 block at
  ((t / 8) % 4, t % 8), and the output (16384 × 4096) is written through its 2048 × 1024 block at (t / 32, (t / 8) % 4).
  So entry (r, l) of the left block is entry (2048 (t / 32) + r, 512 (t % 8) + l) of the left matrix, and likewise on
  the right.
-/
import proofs.«138043_j48576080118359_2_alg».proof.Proof.Gen.KernelIdeal.Frame
import proofs.«138043_j48576080118359_2_alg».proof.Proof.LibRowDot
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Cert.MatSpec

namespace Cert.KernelIdeal.Acc

open Cert.KernelIdeal Cert.KernelIdeal.Gen

variable (m : (ℓ : Loc nD τ sig) → Buf (Elt Ideal) ℓ)

/-- The left matrix, as the kernel finds it: the first argument with its two leading axes merged. -/
def lhs (c : Dev nD) : S16384x4096.Idx → EReal := V m c main_v8

/-- The right matrix, as the kernel finds it: the effective weight, one row per output column. -/
def rhs (c : Dev nD) : S4096x4096.Idx → EReal := V m c main_v9

/-- The block indices of the three windows at every grid point, decided over the 256 points. -/
theorem block_index : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 32 ∧ win0_2.index t (1 : Fin 2) = t.val / 8 % 4 :=
  (by decide +kernel : ∀ t : Fin grid0.N, _)

/-- Entry (r, l) of the left block at point t is entry (2048 (t / 32) + r, 512 (t % 8) + l) of the left matrix. -/
theorem lhs_block (c : Dev nD) (t : Fin cfg0.N) (r : Fin 2048) (l : Fin 512) :
    (iblk m c 0 t : Vec Ideal S2048x512 .f32) (ix2 r l)
      = at2 (lhs m c) (2048 * (t.val / 32) + r.val) (512 * (t.val % 8) + l.val) := by
  have hN : t.val < 256 := lt_of_lt_of_eq t.isLt (show cfg0.N = 256 from N_0)
  obtain ⟨e0, e1, -⟩ := block_index t
  rw [at2_of_lt (lhs m c) _ _ (by omega) (by omega)]
  unfold lhs iblk
  rw [View.read_apply]
  show V m c main_v8 _ = V m c main_v8 _
  congr 1
  funext a
  apply Fin.ext
  match a with
  | ⟨0, _⟩ => show win0_0.index t (0 : Fin 2) * 2048 + 1 * r.val = 2048 * (t.val / 32) + r.val; rw [e0]; omega
  | ⟨1, _⟩ => show win0_0.index t (1 : Fin 2) * 512 + 1 * l.val = 512 * (t.val % 8) + l.val; rw [e1]; omega

/-- Entry (q, l) of the right block at point t is entry (1024 ((t / 8) % 4) + q, 512 (t % 8) + l) of the right matrix. -/
theorem rhs_block (c : Dev nD) (t : Fin cfg0.N) (q : Fin 1024) (l : Fin 512) :
    (iblk m c 1 t : Vec Ideal S1024x512 .bf16) (ix2 q l)
      = at2 (rhs m c) (1024 * (t.val / 8 % 4) + q.val) (512 * (t.val % 8) + l.val) := by
  have hN : t.val < 256 := lt_of_lt_of_eq t.isLt (show cfg0.N = 256 from N_0)
  obtain ⟨-, -, e2, e3, -⟩ := block_index t
  rw [at2_of_lt (rhs m c) _ _ (by omega) (by omega)]
  unfold rhs iblk
  rw [View.read_apply]
  show V m c main_v9 _ = V m c main_v9 _
  congr 1
  funext a
  apply Fin.ext
  match a with
  | ⟨0, _⟩ => show win0_1.index t (0 : Fin 2) * 1024 + 1 * q.val = 1024 * (t.val / 8 % 4) + q.val; rw [e2]; omega
  | ⟨1, _⟩ => show win0_1.index t (1 : Fin 2) * 512 + 1 * l.val = 512 * (t.val % 8) + l.val; rw [e3]; omega

end Cert.KernelIdeal.Acc

end
-- ==== Proof.Accumulate.lean ====
/-
  The scratch holds a partial inner product, one more block of 512 terms at every step of the reduction.

  Write A for the left matrix and B for the right one, and let point t have row-block i = t / 32, column-block
  j = (t / 8) % 4 and reduction step k = t % 8.  After point t, entry (r, q) of the scratch is

      ∑ over l < 512 (k + 1) of A (2048 i + r, l) * B (1024 j + q, l),

  the inner product of a row of A with a row of B cut off after k + 1 blocks.  This is proved by induction on the
  point: at a first step (k = 0) the scratch starts from the zero block, and at a later step point t - 1 has the same i
  and j and step k - 1, so the block found is the sum over l < 512 k and the point adds the terms 512 k ≤ l < 512 (k + 1).
  At a last step (k = 7) all 4096 terms are there, and the block written to the output is the full inner product.
  Only commutativity and associativity of the addition of extended reals are used: nothing needs to be finite.
-/
import proofs.«138043_j48576080118359_2_alg».proof.Proof.Pieces
import proofs.«138043_j48576080118359_2_alg».proof.Proof.Payload
import proofs.«138043_j48576080118359_2_alg».proof.Proof.Blocks

set_option maxRecDepth 16384

noncomputable section

open Idealize.ShloMosaic Idealize.ShloMosaic.TcCoe Idealize.SL.Sem Idealize.ShloMosaic.ValueIdx
open Cert.MatSpec

namespace Cert.KernelIdeal.Acc

open Cert.KernelIdeal Cert.KernelIdeal.Gen

variable (m : (ℓ : Loc nD τ sig) → Buf (Elt Ideal) ℓ)

/-- The inner product of row 2048 (n / 32) + r of the left matrix with row 1024 ((n / 8) % 4) + q of the right matrix,
    cut off after the first n % 8 + 1 blocks of 512 terms. -/
def partialDot (c : Dev nD) (n : ℕ) (r : Fin 2048) (q : Fin 1024) : EReal :=
  rowDot (lhs m c) (rhs m c) (2048 * (n / 32) + r.val) (1024 * (n / 8 % 4) + q.val) (512 * (n % 8 + 1))

/-- One point's step in matrix coordinates: the entry found plus the point's block of 512 products. -/
theorem step_at (c : Dev nD) (t : Fin cfg0.N) (acc : Vec Ideal S2048x1024 .f32) (r : Fin 2048) (q : Fin 1024) :
    k0_pay2 (F := Ideal) (iblk m c 0 t) acc (iblk m c 1 t) (ix2 r q)
      = acc (ix2 r q) + ∑ l : Fin 512, at2 (lhs m c) (2048 * (t.val / 32) + r.val) (512 * (t.val % 8) + l.val)
          * at2 (rhs m c) (1024 * (t.val / 8 % 4) + q.val) (512 * (t.val % 8) + l.val) := by
  refine (step_apply (iblk m c 0 t) acc (iblk m c 1 t) r q).trans ?_
  refine congrArg (fun z => acc (ix2 r q) + z) (Finset.sum_congr rfl fun l _ => ?_)
  exact congrArg₂ (· * ·) (lhs_block m c t r l) (rhs_block m c t q l)

/-- An entry that is the sum of the first k blocks, plus block k, is the sum of the first k + 1 blocks. -/
theorem grow (c : Dev nD) (t : Fin cfg0.N) (r : Fin 2048) (q : Fin 1024) (a : EReal)
    (ha : a = rowDot (lhs m c) (rhs m c) (2048 * (t.val / 32) + r.val) (1024 * (t.val / 8 % 4) + q.val) (512 * (t.val % 8))) :
    a + ∑ l : Fin 512, at2 (lhs m c) (2048 * (t.val / 32) + r.val) (512 * (t.val % 8) + l.val)
          * at2 (rhs m c) (1024 * (t.val / 8 % 4) + q.val) (512 * (t.val % 8) + l.val)
      = partialDot m c t.val r q := by
  unfold partialDot
  rw [ha, ← rowDot_block]

/-- The block point t - 1 left, when t is not a first step, is the sum of the first t % 8 blocks of t's own row pair. -/
theorem found (c : Dev nD) (t : Fin cfg0.N) (h0 : ¬t.val % 8 = 0) (r : Fin 2048) (q : Fin 1024) :
    partialDot m c (t.val - 1) r q
      = rowDot (lhs m c) (rhs m c) (2048 * (t.val / 32) + r.val) (1024 * (t.val / 8 % 4) + q.val) (512 * (t.val % 8)) := by
  unfold partialDot
  have e1 : (t.val - 1) / 32 = t.val / 32 := by omega
  have e2 : (t.val - 1) / 8 % 4 = t.val / 8 % 4 := by omega
  have e3 : (t.val - 1) % 8 + 1 = t.val % 8 := by omega
  rw [e1, e2, e3]

/-- One step of the induction: if point t - 1 left the partial inner products in the scratch (asked only when t is
    not a first step), so does point t. -/
theorem scratch_step (c : Dev nD) (t : Fin cfg0.N)
    (ih : ¬t.val % 8 = 0 → ∀ (r : Fin 2048) (q : Fin 1024),
      (outsAt0 m c (t.val - 1) (Nat.lt_of_le_of_lt (Nat.sub_le _ _) t.isLt)).2 (ix2 r q) = partialDot m c (t.val - 1) r q)
    (r : Fin 2048) (q : Fin 1024) :
    (outsAt0 m c t.val t.isLt).2 (ix2 r q) = partialDot m c t.val r q := by
  have hN : t.val < 256 := lt_of_lt_of_eq t.isLt (show cfg0.N = 256 from N_0)
  by_cases h0 : t.val % 8 = 0
  · have h1 : ¬t.val % 8 = 7 := by omega
    rw [outsAt0_A m c t h0 h1]
    dsimp only
    rw [scratch_first (F := Ideal) c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (iblk m c 0 t) (iblk m c 1 t)]
    refine (step_at m c t (k0_pay1 (F := Ideal)) r q).trans ?_
    refine grow m c t r q _ ?_
    rw [zero_block_apply, h0, Nat.mul_zero, rowDot_zero]
  · by_cases h1 : t.val % 8 = 7
    · rw [outsAt0_C m c t h0 h1]
      dsimp only
      rw [scratch_last (F := Ideal) c (grid0.coords t) (ms0_0 t) (hs0_0 t) (ms0_1 t) (hs0_1 t) (ms0_2 t) (hs0_2 t) scM0_0 (Memref.isWhole_whole _)
        (fun h => h0 ((hcond0_0 t).mp h)) ((hcond0_1 t).mpr h1) (iblk m c 0 t) (iblk m c 1 t)
        (outsAt0 m c (t.val - 1) (Nat.lt_of_le_of_lt (Nat.sub_le _ _) t.isLt)).2]
      refine (step_at m c t _ r q).trans ?_
      exact grow m c t r q _ ((ih h0 r q).trans (found m c t h0 r q))
    · rw [outsAt0_B m c t h0 h1]
      dsimp only
      rw [scratch_mid (F := Ideal) c (grid0.coords t) (ms0_0 t) (hs0_0 t) (ms0_1 t) (hs0_1 t) (ms0_2 t) (hs0_2 t) scM0_0 (Memref.isWhole_whole _)
        (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2]
      refine (step_at m c t _ r q).trans ?_
      exact grow m c t r q _ ((ih h0 r q).trans (found m c t h0 r q))

/-- After every point the scratch holds the partial inner products of the point's rows, by induction on the point. -/
theorem scratch_eq (c : Dev nD) : ∀ (n : ℕ) (h : n < cfg0.N) (r : Fin 2048) (q : Fin 1024),
    (outsAt0 m c n h).2 (ix2 r q) = partialDot m c n r q
  | 0, h, r, q => scratch_step m c ⟨0, h⟩ (fun h0 => absurd (Nat.zero_mod 8) h0) r q
  | n + 1, h, r, q => scratch_step m c ⟨n + 1, h⟩ (fun _ r q => scratch_eq c n (Nat.lt_of_succ_lt h) r q) r q

/-- At a last step the output block holds the full inner products: entry (r, q) is the sum over all 4096 positions
    of A (2048 (t / 32) + r, l) * B (1024 ((t / 8) % 4) + q, l). -/
theorem out_eq (c : Dev nD) (t : Fin cfg0.N) (h7 : t.val % 8 = 7) (r : Fin 2048) (q : Fin 1024) :
    (outsAt0 m c t.val t.isLt).1 (ix2 r q)
      = rowDot (lhs m c) (rhs m c) (2048 * (t.val / 32) + r.val) (1024 * (t.val / 8 % 4) + q.val) 4096 := by
  have hN : t.val < 256 := lt_of_lt_of_eq t.isLt (show cfg0.N = 256 from N_0)
  have h0 : ¬t.val % 8 = 0 := by omega
  rw [outsAt0_C m c t h0 h7]
  dsimp only
  rw [out_last (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h7) (iblk m c 0 t) (iblk m c 1 t)
    (outsAt0 m c (t.val - 1) (Nat.lt_of_le_of_lt (Nat.sub_le _ _) t.isLt)).2]
  refine (step_at m c t _ r q).trans ?_
  refine (grow m c t r q _ ((scratch_eq m c (t.val - 1) _ r q).trans (found m c t h0 r q))).trans ?_
  unfold partialDot
  rw [h7]

end Cert.KernelIdeal.Acc

end
-- ==== Proof.Region.lean ====
/-
  The output matrix after the kernel: every entry is a full inner product.

  The output is written back only at the last step of each reduction (points with t % 8 = 7), through the
  2048 × 1024 block at (t / 32, (t / 8) % 4).  What such a point writes is the block of full inner products of the
  rows of the left matrix with the rows of the right matrix (the accumulation), so it is the matching block of the one
  matrix P (R, C) = ∑ over l < 4096 of A (R, l) * B (C, l).  The 8 × 4 last-step points have pairwise different blocks that
  together tile the 16384 × 4096 output: entry (R, C) lies in the block of the point 32 (R / 2048) + 8 (C / 1024) + 7.
  Hence the output array ends at P.
-/
import proofs.«138043_j48576080118359_2_alg».proof.Proof.Accumulate

set_option maxRecDepth 16384

noncomputable section

open Idealize.ShloMosaic Idealize.ShloMosaic.TcCoe Idealize.SL.Sem Idealize.ShloMosaic.ValueIdx
open Idealize.ShloMosaic.Pipeline (Dat)
open Cert.MatSpec

namespace Cert.KernelIdeal.Acc

open Cert.KernelIdeal Cert.KernelIdeal.Gen

variable (m : (ℓ : Loc nD τ sig) → Buf (Elt Ideal) ℓ)

/-- The product matrix: entry (R, C) is the inner product of row R of the left matrix with row C of the right one. -/
def prod (c : Dev nD) : S16384x4096.Idx → EReal :=
  fun j => rowDot (lhs m c) (rhs m c) (j 0).val (j 1).val 4096

/-- What a last-step point writes back is its block of the product matrix. -/
theorem flushed_eq (c : Dev nD) (t : Fin cfg0.N) (hf : (cfg0.win 2).flush t = true) :
    (dats m 0 c).flushed 2 t = ((cfg0.win 2).blk t).view.read (Elt Ideal) (prod m c) := by
  have h7 : t.val % 8 = 7 := (flush0_2 t).mp hf
  have hN : t.val < 256 := lt_of_lt_of_eq t.isLt (show cfg0.N = 256 from N_0)
  obtain ⟨-, -, -, -, e4, e5⟩ := block_index t
  show (cfg0.win 2).cut (grid0.coords t) ((dats m 0 c).after 2 t) = _
  rw [after0_2]
  show (outsAt0 m c t.val t.isLt).1 = fun y : S2048x1024.Idx => prod m c (((cfg0.win 2).blk t).view.emb y)
  funext y
  obtain ⟨r, q, rfl⟩ : ∃ (r : Fin 2048) (q : Fin 1024), y = ix2 r q := ⟨y 0, y 1, eq_ix2 y⟩
  rw [out_eq m c t h7 r q]
  have k0 : ((((cfg0.win 2).blk t).view.emb (ix2 r q)) 0).val = 2048 * (t.val / 32) + r.val := by
    show win0_2.index t (0 : Fin 2) * 2048 + 1 * r.val = _
    rw [e4]; omega
  have k1 : ((((cfg0.win 2).blk t).view.emb (ix2 r q)) 1).val = 1024 * (t.val / 8 % 4) + q.val := by
    show win0_2.index t (1 : Fin 2) * 1024 + 1 * q.val = _
    rw [e5]; omega
  show _ = rowDot (lhs m c) (rhs m c) ((((cfg0.win 2).blk t).view.emb (ix2 r q)) 0).val
    ((((cfg0.win 2).blk t).view.emb (ix2 r q)) 1).val 4096
  rw [k0, k1]

/-- An entry of the output lies in point t's block iff each coordinate lies in the block's range on its axis. -/
theorem mem_block (t : Fin cfg0.N) (i : S16384x4096.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v10).slice (win0_2.rect t)).set ↔ _
  rw [View.set_slice_whole, Rect.mem_set_unit]
  exact Iff.rfl

/-- Every entry of the output lies in the block of some last-step point. -/
theorem cover (i : S16384x4096.Idx) :
    ∃ t : Fin cfg0.N, (cfg0.win 2).flush t = true ∧ i ∈ ((cfg0.win 2).blk t).view.set := by
  have h0 : (i 0).val < 16384 := (i 0).isLt
  have h1 : (i 1).val < 4096 := (i 1).isLt
  have hN : cfg0.N = 256 := N_0
  let t : Fin cfg0.N := ⟨32 * ((i 0).val / 2048) + 8 * ((i 1).val / 1024) + 7, by rw [hN]; omega⟩
  have ht : t.val = 32 * ((i 0).val / 2048) + 8 * ((i 1).val / 1024) + 7 := rfl
  obtain ⟨-, -, -, -, e4, e5⟩ := block_index t
  refine ⟨t, (flush0_2 t).mpr (by rw [ht]; omega), ?_⟩
  rw [mem_block]
  intro a
  match a with
  | ⟨0, _⟩ =>
    show win0_2.index t (0 : Fin 2) * 2048 ≤ (i 0).val ∧ (i 0).val < win0_2.index t (0 : Fin 2) * 2048 + 2048
    rw [e4, ht]; omega
  | ⟨1, _⟩ =>
    show win0_2.index t (1 : Fin 2) * 1024 ≤ (i 1).val ∧ (i 1).val < win0_2.index t (1 : Fin 2) * 1024 + 1024
    rw [e5, ht]; omega

/-- The output array after the kernel is the product matrix. -/
theorem out_array (c : Dev nD) : (dats m 0 c).arrAt 2 cfg0.N = prod m c :=
  (dats m 0 c).arrAt_eq_of_cover 2 (prod m c) (fun t hf => flushed_eq m c t hf) cover

end Cert.KernelIdeal.Acc

end
-- ==== Proof.HostSides.lean ====
/-
  The host operations around the kernel.

  Before the kernel the host forms the effective weight and flattens the input: the right matrix is
  weight + delta, where delta = ((P * sigma) · Qᵀ) * (4/3 as a float) is the low-rank correction, converted to a narrower
  float format (the identity over the extended reals); the left matrix is the input x with its two leading axes
  merged, so row 4096 b + s of it is row (b, s) of x.  After the kernel the host splits the leading axis of the product
  back into (b, s).  So the result at (b, s, o) is the product matrix at (4096 b + s, o).
-/
import proofs.«138043_j48576080118359_2_alg».proof.Proof.Region
import Idealize.ShloMosaic.Lib.StableHlo.Run
import Idealize.ShloMosaic.Lib.Pipeline.FrameSuffix

set_option maxRecDepth 16384

noncomputable section

open Idealize.ShloMosaic Idealize.ShloMosaic.TcCoe Idealize.SL.Sem Idealize.ShloMosaic.ValueIdx
open Idealize.ShloMosaic.Pipeline (Dat)
open Cert.MatSpec

namespace Cert.KernelIdeal.Acc

open Cert.KernelIdeal Cert.KernelIdeal.Gen

variable (m : (ℓ : Loc nD τ sig) → Buf (Elt Ideal) ℓ)

/-- The low-rank correction ((P * sigma) · Qᵀ) * scaling, as the host computes it. It is never opened: the reference
    computes the same array by the same operations. -/
def delta (p : FVec Ideal S4096x12 .f32) (σ : FVec Ideal S12 .f32) (qm : FVec Ideal S4096x12 .f32) : FVec Ideal S4096x4096 .f32 :=
  mulf (Host.dotGeneral dot_S4096x12_S12x4096_S4096x4096_1_0_0_1_n_n none
      (mulf p (broadcastInDim S4096x12 ![0, 1] bcast_S1x12_S4096x12_0_1 (broadcastInDim S1x12 ![1] bcast_S12_S1x12_1 σ)))
      (transpose S12x4096 [1, 0] qm transposes_S4096x12_S12x4096_1_0))
    (broadcastInDim S4096x4096 ![] bcast_S_S4096x4096 (constant (F := Ideal) S_ .f32 0x3FAAAAAB#32))

/-- The input x, the weight, and the low-rank correction of the launch contents, as arrays of extended reals. -/
abbrev argX (c : Dev nD) : S4x4096x4096.Idx → EReal := m ((c : Thread nD τ).loc main_arg0)
abbrev argW (c : Dev nD) : S4096x4096.Idx → EReal := m ((c : Thread nD τ).loc main_arg1)
abbrev argD (c : Dev nD) : S4096x4096.Idx → EReal :=
  delta (m ((c : Thread nD τ).loc main_arg2)) (m ((c : Thread nD τ).loc main_arg3)) (m ((c : Thread nD τ).loc main_arg4))

/-- The left matrix is the input with its two leading axes merged. -/
theorem lhs_eq (c : Dev nD) :
    lhs m c = shapeCast S16384x4096 (m ((c : Thread nD τ).loc main_arg0)) shapeCasts_S4x4096x4096_S16384x4096 := by
  unfold lhs
  show StableHlo.after hostOps0 (fun b => m (c, b)) (Proc.devRef .tc main_v8) = _
  after_results
  rfl

/-- Entry (4096 b + s, l) of the left matrix is entry (b, s, l) of the input. -/
theorem lhs_apply (c : Dev nD) (b : Fin 4) (s : Fin 4096) (l : Fin 4096) (h : 4096 * b.val + s.val < 16384) :
    lhs m c (ix2 ⟨4096 * b.val + s.val, h⟩ l) = argX m c (ix3 b s l) := by
  rw [lhs_eq]
  refine shapeCast_apply _ _ _ (ix3 b s l) ?_
  rw [Shape.rowMajor_val_three, Shape.rowMajor_val_two]
  show (b.val * 4096 + s.val) * 4096 + l.val = (4096 * b.val + s.val) * 4096 + l.val
  omega

/-- The right matrix is the weight plus the low-rank correction. -/
theorem rhs_eq (c : Dev nD) :
    rhs m c = fun j => argW m c j + argD m c j := by
  unfold rhs
  show StableHlo.after hostOps0 (fun b => m (c, b)) (Proc.devRef .tc main_v9) = _
  after_results
  rfl

/-- The program's result: the product matrix with its leading axis split back. -/
theorem tail_eq (c : Dev nD) :
    Pipeline.afterTail₀ cfgs (dats m) 0 (V0 m) [hostOps1] c main_v11
      = shapeCast S4x4096x4096 (prod m c) shapeCasts_S16384x4096_S4x4096x4096 := by
  have e : Pipeline.withArrays (cfgs 0).spec c (V0 m c) (fun w => (dats m 0 c).arrAt w (cfgs 0).N) (Proc.devRef .tc main_v10)
      = prod m c := (Pipeline.withArrays_arr spec0 launch0.win.arr_inj c _ _ 2).trans (out_array m c)
  unfold Pipeline.afterTail₀
  show StableHlo.after hostOps1 _ (Proc.devRef .tc main_v11) = _
  after_results
  rw [e]
  rfl

/-- Entry (b, s, o) of the result is the inner product of row (b, s) of the input with row o of
    weight + delta. -/
theorem result_apply (c : Dev nD) (b : Fin 4) (s : Fin 4096) (o : Fin 4096) :
    shapeCast S4x4096x4096 (prod m c) shapeCasts_S16384x4096_S4x4096x4096 (ix3 b s o)
      = ∑ k : Fin 4096, argX m c (ix3 b s k) * (argW m c (ix2 o k) + argD m c (ix2 o k)) := by
  have hb : b.val < 4 := b.isLt
  have hs : s.val < 4096 := s.isLt
  have h : 4096 * b.val + s.val < 16384 := by omega
  refine (shapeCast_apply _ _ _ (ix2 ⟨4096 * b.val + s.val, h⟩ o) ?_).trans ?_
  · rw [Shape.rowMajor_val_two, Shape.rowMajor_val_three]
    show (4096 * b.val + s.val) * 4096 + o.val = (b.val * 4096 + s.val) * 4096 + o.val
    omega
  · show rowDot (lhs m c) (rhs m c) (4096 * b.val + s.val) o.val 4096 = _
    refine (rowDot_full (lhs m c) (rhs m c) ⟨4096 * b.val + s.val, h⟩ o).trans ?_
    refine Finset.sum_congr rfl fun k _ => ?_
    rw [lhs_apply m c b s k h, rhs_eq]

end Cert.KernelIdeal.Acc

end
-- ==== Proof.KernelRun.lean ====
/-
  The kernel program's run, with its result named.

  Every weakly fair execution of the program terminates without a fault; the result array ends at the product
  matrix with its leading axis split into (b, s), and the five argument arrays end as they were launched.
-/
import proofs.«138043_j48576080118359_2_alg».proof.Proof.HostSides

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- The program's result: entry (b, s, o) is entry (4096 b + s, o) of the product matrix. -/
def result (c : Dev nD) : S4x4096x4096.Idx → EReal :=
  shapeCast S4x4096x4096 (prod m c) shapeCasts_S16384x4096_S4x4096x4096

/-- Entry (b, s, o) of the result is the inner product of row (b, s) of x with row o of weight + delta. -/
theorem result_at (c : Dev nD) (b : Fin 4) (s : Fin 4096) (o : Fin 4096) :
    result m c (ix3 b s o) = ∑ k : Fin 4096, argX m c (ix3 b s k) * (argW m c (ix2 o k) + argD m c (ix2 o k)) :=
  result_apply m c b s o

/-- The run: the result array at `result`, the arguments unchanged. -/
theorem run : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Acc

end
-- ==== Proof.RealSums.lean ====
/-
  A real factor distributes over a sum whose first summand is real.

  Over the extended reals x * (w + d) = x * w + x * d can fail (take x = -1, w = ⊤, d = ⊥).  It holds as soon as
  x and w are real numbers, whatever d is: for real d it is the law of the reals, and for d = ±∞ both sides are
  x * d, because adding the real number x * w to an infinity (or to 0 * d = 0) changes nothing.  Summed over a finite
  index set this splits ∑ x k * (w k + d k) into ∑ x k * w k + ∑ x k * d k: addition of extended reals is commutative
  and associative, so the sum of termwise sums is the sum of the two sums.
-/
import Mathlib.Data.EReal.Operations
import Mathlib.Algebra.BigOperators.Group.Finset.Basic

namespace Cert.RealSums

open scoped BigOperators

/-- x * (w + d) = x * w + x * d for real x and w and any extended real d. -/
theorem real_mul_add (x w : ℝ) (d : EReal) :
    (x : EReal) * ((w : EReal) + d) = (x : EReal) * (w : EReal) + (x : EReal) * d := by
  induction d using EReal.rec with
  | bot =>
    rw [EReal.add_bot]
    rcases lt_trichotomy x 0 with hx | hx | hx
    · rw [EReal.coe_mul_bot_of_neg hx, ← EReal.coe_mul, EReal.coe_add_top]
    · subst hx; simp
    · rw [EReal.coe_mul_bot_of_pos hx, EReal.add_bot]
  | coe d =>
    rw [← EReal.coe_add, ← EReal.coe_mul, ← EReal.coe_mul, ← EReal.coe_mul, ← EReal.coe_add, mul_add]
  | top =>
    rw [EReal.coe_add_top]
    rcases lt_trichotomy x 0 with hx | hx | hx
    · rw [EReal.coe_mul_top_of_neg hx, EReal.add_bot]
    · subst hx; simp
    · rw [EReal.coe_mul_top_of_pos hx, ← EReal.coe_mul, EReal.coe_add_top]

/-- An extended real that is a real number. -/
def IsReal (a : EReal) : Prop := ∃ r : ℝ, a = (r : EReal)

/-- An extended real strictly between the two infinities is a real number. -/
theorem isReal_of_ne {a : EReal} (htop : a ≠ ⊤) (hbot : a ≠ ⊥) : IsReal a := by
  induction a using EReal.rec with
  | bot => exact absurd rfl hbot
  | coe r => exact ⟨r, rfl⟩
  | top => exact absurd rfl htop

/-- The same law with the two real operands given as extended reals known to be real. -/
theorem mul_add_of_isReal {x w : EReal} (hx : IsReal x) (hw : IsReal w) (d : EReal) :
    x * (w + d) = x * w + x * d := by
  obtain ⟨x, rfl⟩ := hx
  obtain ⟨w, rfl⟩ := hw
  exact real_mul_add x w d

/-- Termwise over a finite sum: ∑ x k * (w k + d k) = ∑ x k * w k + ∑ x k * d k when every x k and w k is real. -/
theorem sum_mul_add {ι : Type*} (s : Finset ι) (x w d : ι → EReal) (hx : ∀ k, IsReal (x k)) (hw : ∀ k, IsReal (w k)) :
    ∑ k ∈ s, x k * (w k + d k) = ∑ k ∈ s, x k * w k + ∑ k ∈ s, x k * d k := by
  rw [← Finset.sum_add_distrib]
  exact Finset.sum_congr rfl fun k _ => mul_add_of_isReal (hx k) (hw k) (d k)

end Cert.RealSums
-- ==== Proof.RefValue.lean ====
/-
  The reference at an entry.

  The reference adds two products: x · weightᵀ and x · (delta)ᵀ, delta the low-rank correction.  Entry (b, s, o) of
  the first is ∑ over k of x (b, s, k) * weight (o, k), of the second ∑ over k of x (b, s, k) * delta (o, k).  When the entries of
  x and of weight are real numbers, each term x * weight + x * delta is x * (weight + delta) (a real factor distributes over a sum
  whose first summand is real), so the two sums add up to ∑ over k of x (b, s, k) * (weight (o, k) + delta (o, k)): the inner
  product of a row of x with a row of the effective weight.
-/
import proofs.«138043_j48576080118359_2_alg».proof.Proof.Gen.ReferenceIdeal.Read
import proofs.«138043_j48576080118359_2_alg».proof.Proof.RealSums

noncomputable section

open Idealize.ShloMosaic Idealize.ShloMosaic.TcCoe Idealize.SL.Sem Idealize.ShloMosaic.ValueIdx

namespace Cert.ReferenceIdeal.RefValue

open Cert.ReferenceIdeal Cert.ReferenceIdeal.Read Cert.RealSums

/-- The positions the two products read: row (b, s) of x against row o of the second operand. -/
theorem lidx0 (b : Fin 4) (s o k : Fin 4096) : lidx_main_v0 (ix3 b s o) k = ix3 b s k :=
  funext fun a => match a with | ⟨0, _⟩ => rfl | ⟨1, _⟩ => rfl | ⟨2, _⟩ => rfl
theorem ridx0 (b : Fin 4) (s o k : Fin 4096) : ridx_main_v0 (ix3 b s o) k = ix2 o k :=
  funext fun a => match a with | ⟨0, _⟩ => rfl | ⟨1, _⟩ => rfl
theorem lidx8 (b : Fin 4) (s o k : Fin 4096) : lidx_main_v8 (ix3 b s o) k = ix3 b s k :=
  funext fun a => match a with | ⟨0, _⟩ => rfl | ⟨1, _⟩ => rfl | ⟨2, _⟩ => rfl
theorem ridx8 (b : Fin 4) (s o k : Fin 4096) : ridx_main_v8 (ix3 b s o) k = ix2 o k :=
  funext fun a => match a with | ⟨0, _⟩ => rfl | ⟨1, _⟩ => rfl

/-- Entry (b, s, o) of the reference's result, for an input and a weight with real entries: the inner product of
    row (b, s) of x with row o of weight + delta. -/
theorem result_apply (x0 : FVec Ideal S4x4096x4096 .f32) (x1 : FVec Ideal S4096x4096 .f32) (x2 : FVec Ideal S4096x12 .f32)
    (x3 : FVec Ideal S12 .f32) (x4 : FVec Ideal S4096x12 .f32)
    (hx0 : ∀ i, IsReal (x0 i)) (hx1 : ∀ i, IsReal (x1 i)) (b : Fin 4) (s o : Fin 4096) :
    val_main_v9 (F := Ideal) x0 x1 x2 x3 x4 (ix3 b s o)
      = ∑ k : Fin 4096, x0 (ix3 b s k) * (x1 (ix2 o k) + val_main_v7 (F := Ideal) x2 x3 x4 (ix2 o k)) := by
  rw [val_main_v9_apply, val_main_v0_apply, val_main_v8_apply]
  simp only [lidx0, ridx0, lidx8, ridx8]
  exact (sum_mul_add Finset.univ (fun k => x0 (ix3 b s k)) (fun k => x1 (ix2 o k))
    (fun k => val_main_v7 (F := Ideal) x2 x3 x4 (ix2 o k)) (fun k => hx0 _) (fun k => hx1 _)).symm

end Cert.ReferenceIdeal.RefValue

end
-- ==== Proof.Finite.lean ====
/-
  Finite inputs are arrays of real numbers.

  The precondition says, of each float argument, that |v| < +∞ at every entry, the five statements joined by "and".
  Over the extended reals |v| is max v (-v) and the word of +∞ denotes ⊤; an extended real v with max v (-v) < ⊤ is neither
  ⊤ nor ⊥, so it is a real number.  Only the first two arguments (the input x and the weight) are needed.
-/
import proofs.«138043_j48576080118359_2_alg».proof.Pre_finite_inputs
import proofs.«138043_j48576080118359_2_alg».proof.Proof.RealSums
import Idealize.ShloMosaic.Lib.ReduceAll
import Idealize.ShloMosaic.Lib.ValueIdx
import Idealize.ShloMosaic.PureOps.Ideal

noncomputable section

open Idealize.ShloMosaic Idealize.ShloMosaic.ValueIdx

namespace Cert.FiniteInputs

open Cert.Pre_finite_inputs Cert.Pre_finite_inputs.Facts Cert.RealSums

/-- The scalar shape has one index. -/
instance : Subsingleton S_.Idx := ⟨fun a b => funext fun d => d.elim0⟩

/-- The word of +∞ denotes ⊤. -/
theorem top_word : Ideal.ofBits .f32 0x7F800000#32 = (⊤ : EReal) := by
  simp [Ideal.ofBits, Ideal.ieee]

/-- An extended real whose absolute value is below +∞ is a real number. -/
theorem isReal_of_abs_lt (v : EReal) (h : Ideal.cmp .olt (max v (-v)) (Ideal.ofBits .f32 0x7F800000#32) = 1#1) : IsReal v := by
  rw [top_word] at h
  have hlt : max v (-v) < ⊤ := by
    by_contra hn
    have h' : Ideal.cmp .olt (max v (-v)) ⊤ = 0#1 := by
      show BitVec.ofBool (decide (max v (-v) < ⊤)) = 0#1
      rw [decide_eq_false hn]
      rfl
    rw [h'] at h
    exact absurd h (by decide)
  induction v using EReal.rec with
  | bot => simp at hlt
  | coe r => exact ⟨r, rfl⟩
  | top => simp at hlt

variable [Cert.Pre_finite_inputs.Facts]

/-- Under the precondition the input x and the weight have real entries. -/
theorem real_inputs (x0 : FVec Ideal S4x4096x4096 .f32) (x1 : FVec Ideal S4096x4096 .f32) (x2 : FVec Ideal S4096x12 .f32)
    (x3 : FVec Ideal S12 .f32) (x4 : FVec Ideal S4096x12 .f32)
    (h : Cert.Pre_finite_inputs.fn (F := Ideal) x0 x1 x2 x3 x4 = fun _ => 1#1) :
    (∀ i, IsReal (x0 i)) ∧ (∀ i, IsReal (x1 i)) := by
  have h0 := congrFun h ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, -⟩ := IntOp.andi_eq_one.1 h2
  obtain ⟨ha, hb⟩ := IntOp.andi_eq_one.1 h3
  exact ⟨fun i => isReal_of_abs_lt (x0 i) (Host.reduce_andi_all _ _ _ _ ix0 ha i),
    fun i => isReal_of_abs_lt (x1 i) (Host.reduce_andi_all _ _ _ _ ix0 hb i)⟩

end Cert.FiniteInputs

end
-- ==== Proof.lean ====
/-
  A linear layer with a low-rank correction: x · (weight + delta)ᵀ against x · weightᵀ + x · deltaᵀ.

  Both programs form delta = ((P * sigma) · Qᵀ) * (4/3 as a float) by the same host operations.  The kernel program
  adds it to the weight first and then multiplies: the input x, with its leading axes (b, s) merged into 16384 rows, is
  multiplied by the transposed effective weight in 2048 × 1024 output blocks, the 4096 products of each entry accumulated in
  eight blocks of 512 in a scratch buffer; the result has entry (b, s, o) = ∑ over k of x (b, s, k) * (weight (o, k) + delta (o, k)).
  The reference multiplies twice and adds: ∑ over k of x (b, s, k) * weight (o, k) + ∑ over k of x (b, s, k) * delta (o, k).
  Over the extended reals the two agree when x and the weight are finite: a real factor distributes over a sum whose first
  summand is real, whatever the second summand, and a finite sum of termwise sums is the sum of the two sums.  delta is never
  opened and need not be finite.  The idealization rewrote nothing, so the kernel and its idealization are one text.
-/
import proofs.«138043_j48576080118359_2_alg».proof.Defs
import proofs.«138043_j48576080118359_2_alg».proof.Proof.Gen.Kernel
import proofs.«138043_j48576080118359_2_alg».proof.Proof.Gen.Kernel.Frame
import proofs.«138043_j48576080118359_2_alg».proof.Proof.Gen.KernelIdeal
import proofs.«138043_j48576080118359_2_alg».proof.Proof.Gen.KernelIdeal.Frame
import proofs.«138043_j48576080118359_2_alg».proof.Proof.Gen.ReferenceIdeal
import proofs.«138043_j48576080118359_2_alg».proof.Proof.Gen.ReferenceIdeal.Run
import proofs.«138043_j48576080118359_2_alg».proof.Proof.Gen.ReferenceIdeal.Read
import proofs.«138043_j48576080118359_2_alg».proof.Proof.Gen.Pre_finite_inputs
import proofs.«138043_j48576080118359_2_alg».proof.Proof.KernelRun
import proofs.«138043_j48576080118359_2_alg».proof.Proof.RefValue
import proofs.«138043_j48576080118359_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The low-rank correction is one array: the kernel program and the reference compute it by the same operations. -/
theorem delta_eq (p : FVec Ideal Cert.KernelIdeal.S4096x12 .f32) (σ : FVec Ideal Cert.KernelIdeal.S12 .f32)
    (q : FVec Ideal Cert.KernelIdeal.S4096x12 .f32) :
    Cert.KernelIdeal.Acc.delta p σ q = Cert.ReferenceIdeal.Read.val_main_v7 (F := Ideal) p σ q := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments, with finite inputs, both programs end with the same result: at
    (b, s, o) the inner product of row (b, s) of x with row o of weight + delta. -/
theorem algebraic : Cert.algebraic_KernelIdeal_ReferenceIdeal := by
  intro m ρ m' ρ' hpre hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  obtain ⟨r0, r1⟩ := Cert.FiniteInputs.real_inputs _ _ _ _ _ (hpre c)
  rw [a0, a1, a2, a3, a4, Cert.ReferenceIdeal.Read.val_main_v9_eq]
  funext i
  obtain ⟨b, s, o, rfl⟩ : ∃ (b : Fin 4) (s o : Fin 4096), i = ix3 b s o := ⟨i 0, i 1, i 2, eq_ix3 i⟩
  rw [Cert.ReferenceIdeal.RefValue.result_apply _ _ _ _ _ r0 r1 b s o, ← delta_eq]
  exact (Cert.KernelIdeal.Acc.result_at m c b s o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
